-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x8192x64 : Shape := ⟨4, ![4, 16, 8192, 64]⟩
abbrev S_ : Shape := ⟨0, ![]⟩

class Facts : Prop where
  bcast_S_S4x16x8192x64 : S_.BroadcastsInDim S4x16x8192x64 (![] : Fin 0 → Fin S4x16x8192x64.rank)
  reducesTo_S4x16x8192x64_S_d0_1_2_3 : S4x16x8192x64.ReducesTo [0, 1, 2, 3] S_
  h_S_ : 0 < S_.numel

variable [Facts]

def fn {F : FTy → Type} [FloatOps F] (main_arg0 : FVec F S4x16x8192x64 .f32) (main_arg1 : FVec F S4x16x8192x64 .f32) (main_arg2 : FVec F S4x16x8192x64 .f32) : IVec S_ 1 :=
  let main_v0 : FVec F S4x16x8192x64 .f32 := Host.absf main_arg0
  let main_cst : FVec F S_ .f32 := constant S_ .f32 0x7F800000#32
  let main_v1 : FVec F S4x16x8192x64 .f32 := broadcastInDim S4x16x8192x64 ![] bcast_S_S4x16x8192x64 main_cst
  let main_v2 : IVec S4x16x8192x64 1 := cmpf .olt main_v0 main_v1
  let main_c : IVec S_ 1 := constantI S_ 1 1#1
  let main_v3 : IVec S_ 1 := (fun x v => Host.reduce IntOp.andi x v reducesTo_S4x16x8192x64_S_d0_1_2_3 h_S_) main_v2 main_c
  let main_v4 : FVec F S4x16x8192x64 .f32 := Host.absf main_arg1
  let main_cst_0 : FVec F S_ .f32 := constant S_ .f32 0x7F800000#32
  let main_v5 : FVec F S4x16x8192x64 .f32 := broadcastInDim S4x16x8192x64 ![] bcast_S_S4x16x8192x64 main_cst_0
  let main_v6 : IVec S4x16x8192x64 1 := cmpf .olt main_v4 main_v5
  let main_c_1 : IVec S_ 1 := constantI S_ 1 1#1
  let main_v7 : IVec S_ 1 := (fun x v => Host.reduce IntOp.andi x v reducesTo_S4x16x8192x64_S_d0_1_2_3 h_S_) main_v6 main_c_1
  let main_v8 : IVec S_ 1 := andi main_v3 main_v7
  let main_v9 : FVec F S4x16x8192x64 .f32 := Host.absf main_arg2
  let main_cst_2 : FVec F S_ .f32 := constant S_ .f32 0x7F800000#32
  let main_v10 : FVec F S4x16x8192x64 .f32 := broadcastInDim S4x16x8192x64 ![] bcast_S_S4x16x8192x64 main_cst_2
  let main_v11 : IVec S4x16x8192x64 1 := cmpf .olt main_v9 main_v10
  let main_c_3 : IVec S_ 1 := constantI S_ 1 1#1
  let main_v12 : IVec S_ 1 := (fun x v => Host.reduce IntOp.andi x v reducesTo_S4x16x8192x64_S_d0_1_2_3 h_S_) main_v11 main_c_3
  let main_v13 : IVec S_ 1 := andi main_v8 main_v12
  main_v13
-- ==== Kernel.lean ====
abbrev S4x16x8192x64 : Shape := ⟨4, ![4, 16, 8192, 64]⟩
abbrev S1x2x8192x64 : Shape := ⟨4, ![1, 2, 8192, 64]⟩
abbrev S2x8192x64 : Shape := ⟨3, ![2, 8192, 64]⟩
abbrev S2x8192 : Shape := ⟨2, ![2, 8192]⟩
abbrev S2x8192x1 : Shape := ⟨3, ![2, 8192, 1]⟩
abbrev S2x64 : Shape := ⟨2, ![2, 64]⟩
abbrev S2x1x64 : Shape := ⟨3, ![2, 1, 64]⟩
abbrev S2x64x64 : Shape := ⟨3, ![2, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S4x16x8192x64, .f32⟩
  | .local _ .vmem, ⟨0, _⟩ => ⟨S1x2x8192x64, .f32⟩
  | .local _ .vmem, ⟨1, _⟩ => ⟨S1x2x8192x64, .f32⟩
  | .local _ .vmem, ⟨2, _⟩ => ⟨S1x2x8192x64, .f32⟩
  | .local _ .vmem, ⟨3, _⟩ => ⟨S1x2x8192x64, .f32⟩
  | .local _ .vmem, ⟨4, _⟩ => ⟨S1x2x8192x64, .f32⟩
  | .local _ .vmem, ⟨5, _⟩ => ⟨S1x2x8192x64, .f32⟩
  | .local _ .vmem, ⟨6, _⟩ => ⟨S1x2x8192x64, .f32⟩
  | .local _ .vmem, ⟨7, _⟩ => ⟨S1x2x8192x64, .f32⟩
  | _, _ => ⟨S4x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2x8192x64_S1x2x8192x64_0_0_0_0 : ∀ a, (![0, 0, 0, 0] : Fin 4 → Nat) a + S1x2x8192x64.size a ≤ S1x2x8192x64.size a
  h_S1x2x8192x64 : 0 < S1x2x8192x64.numel
  shapeCasts_S1x2x8192x64_S2x8192x64 : S1x2x8192x64.ShapeCasts S2x8192x64
  reduces_S2x8192x64_S2x8192 : S2x8192x64.Reduces [2] S2x8192
  shapeCasts_S2x8192_S2x8192x1 : S2x8192.ShapeCasts S2x8192x1
  broadcasts_S2x8192x1_S2x8192x64 : S2x8192x1.Broadcasts S2x8192x64
  reduces_S2x8192x64_S2x64 : S2x8192x64.Reduces [1] S2x64
  shapeCasts_S2x64_S2x1x64 : S2x64.ShapeCasts S2x1x64
  broadcasts_S2x1x64_S2x8192x64 : S2x1x64.Broadcasts S2x8192x64
  shapeCasts_S2x8192x64_S1x2x8192x64 : S2x8192x64.ShapeCasts S1x2x8192x64
  dot_S2x8192x64_S2x8192x64_S2x64x64_1_1_2_2_0_0_wf : DotDims.WF S2x8192x64 S2x8192x64 S2x64x64 [1] [1] [2] [2] [0] [0]
  dot_S2x8192x64_S2x64x64_S2x8192x64_2_1_1_2_0_0_wf : DotDims.WF S2x8192x64 S2x64x64 S2x8192x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x8192x64.size a ≤ S4x16x8192x64.size a
  hwx0_0 : ∀ i : grid0.Coords, EltTy.bits .f32 = 32 ∨ (Rect.block (s := S4x16x8192x64) S1x2x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x8192x64.size a ≤ S4x16x8192x64.size a
  hwx0_1 : ∀ i : grid0.Coords, EltTy.bits .f32 = 32 ∨ (Rect.block (s := S4x16x8192x64) S1x2x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x8192x64.size a ≤ S4x16x8192x64.size a
  hwx0_2 : ∀ i : grid0.Coords, EltTy.bits .f32 = 32 ∨ (Rect.block (s := S4x16x8192x64) S1x2x8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x8192x64.size a ≤ S4x16x8192x64.size a
  hwx0_3 : ∀ i : grid0.Coords, EltTy.bits .f32 = 32 ∨ (Rect.block (s := S4x16x8192x64) S1x2x8192x64.size (cc0_transform_3 i) (hinb0_3 i)).WholeWords (EltTy.packing .f32)

variable [Facts₀]

def dot_S2x8192x64_S2x8192x64_S2x64x64_1_1_2_2_0_0 : DotDims S2x8192x64 S2x8192x64 S2x64x64 where
  lhsContracting := [1]
  rhsContracting := [1]
  lhsNonContracting := [2]
  rhsNonContracting := [2]
  lhsBatch := [0]
  rhsBatch := [0]
  wf := dot_S2x8192x64_S2x8192x64_S2x64x64_1_1_2_2_0_0_wf
def dot_S2x8192x64_S2x64x64_S2x8192x64_2_1_1_2_0_0 : DotDims S2x8192x64 S2x64x64 S2x8192x64 where
  lhsContracting := [2]
  rhsContracting := [1]
  lhsNonContracting := [1]
  rhsNonContracting := [2]
  lhsBatch := [0]
  rhsBatch := [0]
  wf := dot_S2x8192x64_S2x64x64_S2x8192x64_2_1_1_2_0_0_wf

abbrev win0_0 : Pipeline.Window sig grid0 :=
  Pipeline.Window.ofSpec (Memref.whole main_arg0) S1x2x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x8192x64 : Shape := ⟨4, ![4, 16, 8192, 64]⟩
abbrev S_ : Shape := ⟨0, ![]⟩
abbrev S4x16x8192 : Shape := ⟨3, ![4, 16, 8192]⟩
abbrev S4x16x8192x1 : Shape := ⟨4, ![4, 16, 8192, 1]⟩
abbrev S4x16x64 : Shape := ⟨3, ![4, 16, 64]⟩
abbrev S4x16x1x64 : Shape := ⟨4, ![4, 16, 1, 64]⟩
abbrev S4x16x64x64 : Shape := ⟨4, ![4, 16, 64, 64]⟩

abbrev nBuf : Space → Nat
  | .hbm => 39
  | .vmem => 0
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x8192, .f32⟩
  | .hbm, ⟨9, _⟩ => ⟨S_, .f32⟩
  | .hbm, ⟨10, _⟩ => ⟨S4x16x8192, .f32⟩
  | .hbm, ⟨11, _⟩ => ⟨S4x16x8192, .f32⟩
  | .hbm, ⟨12, _⟩ => ⟨S4x16x8192x1, .f32⟩
  | .hbm, ⟨13, _⟩ => ⟨S4x16x8192x64, .f32⟩
  | .hbm, ⟨14, _⟩ => ⟨S4x16x8192x64, .f32⟩
  | .hbm, ⟨15, _⟩ => ⟨S4x16x8192x64, .f32⟩
  | .hbm, ⟨16, _⟩ => ⟨S_, .f32⟩
  | .hbm, ⟨17, _⟩ => ⟨S4x16x8192, .f32⟩
  | .hbm, ⟨18, _⟩ => ⟨S4x16x8192x1, .f32⟩
  | .hbm, ⟨19, _⟩ => ⟨S4x16x8192x64, .f32⟩
  | .hbm, ⟨20, _⟩ => ⟨S4x16x8192x64, .f32⟩
  | .hbm, ⟨21, _⟩ => ⟨S4x16x8192x64, .f32⟩
  | .hbm, ⟨22, _⟩ => ⟨S4x16x8192x64, .f32⟩
  | .hbm, ⟨23, _⟩ => ⟨S_, .f32⟩
  | .hbm, ⟨24, _⟩ => ⟨S4x16x64, .f32⟩
  | .hbm, ⟨25, _⟩ => ⟨S_, .f32⟩
  | .hbm, ⟨26, _⟩ => ⟨S4x16x64, .f32⟩
  | .hbm, ⟨27, _⟩ => ⟨S4x16x64, .f32⟩
  | .hbm, ⟨28, _⟩ => ⟨S4x16x1x64, .f32⟩
  | .hbm, ⟨29, _⟩ => ⟨S4x16x8192x64, .f32⟩
  | .hbm, ⟨30, _⟩ => ⟨S4x16x8192x64, .f32⟩
  | .hbm, ⟨31, _⟩ => ⟨S4x16x8192x64, .f32⟩
  | .hbm, ⟨32, _⟩ => ⟨S_, .f32⟩
  | .hbm, ⟨33, _⟩ => ⟨S4x16x64, .f32⟩
  | .hbm, ⟨34, _⟩ => ⟨S4x16x1x64, .f32⟩
  | .hbm, ⟨35, _⟩ => ⟨S4x16x8192x64, .f32⟩
  | .hbm, ⟨36, _⟩ => ⟨S4x16x8192x64, .f32⟩
  | .hbm, ⟨37, _⟩ => ⟨S4x16x64x64, .f32⟩
  | .hbm, ⟨38, _⟩ => ⟨S4x16x8192x64, .f32⟩
  | _, _ => ⟨S4x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S4x16x8192x64_S4x16x8192_d3 : S4x16x8192x64.ReducesTo [3] S4x16x8192
  h_S_ : 0 < S_.numel
  bcast_S_S4x16x8192 : S_.BroadcastsInDim S4x16x8192 (![] : Fin 0 → Fin S4x16x8192.rank)
  bcast_S4x16x8192_S4x16x8192x1_0_1_2 : S4x16x8192.BroadcastsInDim S4x16x8192x1 (![0, 1, 2] : Fin 3 → Fin S4x16x8192x1.rank)
  bcast_S4x16x8192x1_S4x16x8192x64_0_1_2_3 : S4x16x8192x1.BroadcastsInDim S4x16x8192x64 (![0, 1, 2, 3] : Fin 4 → Fin S4x16x8192x64.rank)
  bcast_S_S4x16x8192x64 : S_.BroadcastsInDim S4x16x8192x64 (![] : Fin 0 → Fin S4x16x8192x64.rank)
  reducesTo_S4x16x8192x64_S4x16x64_d2 : S4x16x8192x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x8192x64_0_1_2_3 : S4x16x1x64.BroadcastsInDim S4x16x8192x64 (![0, 1, 2, 3] : Fin 4 → Fin S4x16x8192x64.rank)
  dot_S4x16x8192x64_S4x16x8192x64_S4x16x64x64_2_2_3_3_01_01_wf : DotDims.WF S4x16x8192x64 S4x16x8192x64 S4x16x64x64 [2] [2] [3] [3] [0, 1] [0, 1]
  dot_S4x16x8192x64_S4x16x64x64_S4x16x8192x64_3_2_2_3_01_01_wf : DotDims.WF S4x16x8192x64 S4x16x64x64 S4x16x8192x64 [3] [2] [2] [3] [0, 1] [0, 1]

variable [Facts₀]

def dot_S4x16x8192x64_S4x16x8192x64_S4x16x64x64_2_2_3_3_01_01 : DotDims S4x16x8192x64 S4x16x8192x64 S4x16x64x64 where
  lhsContracting := [2]
  rhsContracting := [2]
  lhsNonContracting := [3]
  rhsNonContracting := [3]
  lhsBatch := [0, 1]
  rhsBatch := [0, 1]
  wf := dot_S4x16x8192x64_S4x16x8192x64_S4x16x64x64_2_2_3_3_01_01_wf
def dot_S4x16x8192x64_S4x16x64x64_S4x16x8192x64_3_2_2_3_01_01 : DotDims S4x16x8192x64 S4x16x64x64 S4x16x8192x64 where
  lhsContracting := [3]
  rhsContracting := [2]
  lhsNonContracting := [2]
  rhsNonContracting := [3]
  lhsBatch := [0, 1]
  rhsBatch := [0, 1]
  wf := dot_S4x16x8192x64_S4x16x64x64_S4x16x8192x64_3_2_2_3_01_01_wf

class Facts : Prop extends Facts₀ where

variable [Facts]
-- ==== Proof.Spec.lean ====
/-
  LINEAR ATTENTION, one (batch, head) pair at a time, on the extended reals.  For arrays q, k, v indexed by
  (batch b, head h, position n, channel d), the result at (b, h, n, e) is

      ∑ d, ( exp q[b,h,n,d] / ∑ d', exp q[b,h,n,d'] · 1/8 ) · ( ∑ n', ( exp k[b,h,n',d] / ∑ n'', exp k[b,h,n'',d] ) · v[b,h,n',e] ) :

  the softmax of q over the channels, scaled by 1/8 = 1/sqrt 64; the softmax of k over the positions; the
  64 × 64 context matrix kᵀ v of the head; and the product of the two.  The entry at (b, h, ·, ·) reads the three
  arrays at batch b and head h only, so it is the same whether computed on the whole arrays or on a block of them
  that holds that head (`attnAt_congr`).
-/
import Idealize.ShloMosaic.PureOps.Ideal
import Idealize.ShloMosaic.Lib.ValueIdx

noncomputable section

open scoped BigOperators

namespace Cert.LinAttn

open Idealize.ShloMosaic Idealize.ShloMosaic.ValueIdx

/-- The result's entry at batch `b`, head `h`, position `n`, channel `e`. -/
def attnAt {nb nh : Nat} (q k v : (⟨4, ![nb, nh, 8192, 64]⟩ : Shape).Idx → EReal) (b : Fin nb) (h : Fin nh) (n : Fin 8192)
    (e : Fin 64) : EReal :=
  ∑ d : Fin 64,
    (Ideal.div (Ideal.exp (q (ix4 b h n d))) (∑ d' : Fin 64, Ideal.exp (q (ix4 b h n d'))) * Ideal.ofBits .f32 0x3E000000#32)
      * ∑ n' : Fin 8192,
          Ideal.div (Ideal.exp (k (ix4 b h n' d))) (∑ n'' : Fin 8192, Ideal.exp (k (ix4 b h n'' d))) * v (ix4 b h n' e)

/-- The entry depends on the three arrays at its own batch and head only. -/
theorem attnAt_congr {nb nh nb' nh' : Nat} (q k v : (⟨4, ![nb, nh, 8192, 64]⟩ : Shape).Idx → EReal)
    (q' k' v' : (⟨4, ![nb', nh', 8192, 64]⟩ : Shape).Idx → EReal) (b : Fin nb) (h : Fin nh) (b' : Fin nb') (h' : Fin nh')
    (hq : ∀ n d, q (ix4 b h n d) = q' (ix4 b' h' n d)) (hk : ∀ n d, k (ix4 b h n d) = k' (ix4 b' h' n d))
    (hv : ∀ n d, v (ix4 b h n d) = v' (ix4 b' h' n d)) (n : Fin 8192) (e : Fin 64) :
    attnAt q k v b h n e = attnAt q' k' v' b' h' n e := by
  unfold attnAt
  simp only [hq, hk, hv]

/-- The arrays' shape: 4 batches, 16 heads, 8192 positions, 64 channels. -/
abbrev Arr : Shape := ⟨4, ![4, 16, 8192, 64]⟩

/-- The whole result array as one function of the three argument arrays. -/
def attn (q k v : Arr.Idx → EReal) : Arr.Idx → EReal :=
  fun i => attnAt q k v ⟨(i 0).val, (i 0).isLt⟩ ⟨(i 1).val, (i 1).isLt⟩ ⟨(i 2).val, (i 2).isLt⟩ ⟨(i 3).val, (i 3).isLt⟩

theorem attn_ix4 (q k v : Arr.Idx → EReal) (b : Fin 4) (h : Fin 16) (n : Fin 8192) (e : Fin 64) :
    attn q k v (ix4 b h n e) = attnAt q k v b h n e := rfl

end Cert.LinAttn

end
-- ==== Proof.KernelBlock.lean ====
/-
  WHAT THE KERNEL BODY COMPUTES ON ONE BLOCK.  A block holds two heads of one batch: q, k, v blocks of shape
  [1, 2, 8192, 64].  The body drops the unit axis, takes exp q and divides by its sum over the 64 channels (kept as
  a column and spread back over the channels), scales by 1/8; takes exp k and divides by its sum over the 8192
  positions (kept as a row and spread back over the positions); contracts the positions of that with v, head by
  head, into a 64 × 64 matrix; contracts the channels of the first with that matrix, head by head; and puts the unit
  axis back.  Read at the entry (head h, position n, channel e) this is linear attention's entry of the block.
-/
import proofs.«102987_j26371099198098_2_alg».proof.Proof.Gen.KernelIdeal.Skeleton
import proofs.«102987_j26371099198098_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LinAttn.Block

open Cert.KernelIdeal Cert.KernelIdeal.Gen Idealize.ShloMosaic Idealize.ShloMosaic.ValueIdx Cert.LinAttn

/-- The dimension numbers of the context product: contract the positions, batch over the heads. -/
abbrev ctxDims := dot_S2x8192x64_S2x8192x64_S2x64x64_1_1_2_2_0_0
/-- The dimension numbers of the output product: contract the channels, batch over the heads. -/
abbrev outDims := dot_S2x8192x64_S2x64x64_S2x8192x64_2_1_1_2_0_0

/-- An exponential of a vector at an index is the exponential of the element. -/
theorem exp_apply {s : Shape} (w : FVec Ideal s .f32) (i : s.Idx) : exp w i = Ideal.exp (w i) := rfl

/-- The sum over the channel axis, at (head, position), is the sum over the 64 channels. -/
theorem sum_channels (w : FVec Ideal S2x8192x64 .f32) (hr : S2x8192x64.Reduces [2] S2x8192) (p1 : FKind.Formats .f32)
    (p2 : (0x00000000#32 : BitVec 32) = 0x00000000#32) (h : Fin 2) (n : Fin 8192) :
    multiReduction .add [2] S2x8192 w 0x00000000#32 hr p1 p2 (ix2 h n) = ∑ d : Fin 64, w (ix3 h n d) :=
  (Ideal.multiReduction_add_single w _ hr p1 p2 (ix2 h n)).trans
    (Finset.sum_congr rfl fun d _ => congrArg w (funext fun a => Fin.ext (by
      match a with | ⟨0, _⟩ => rfl | ⟨1, _⟩ => rfl | ⟨2, _⟩ => rfl)))

/-- The sum over the position axis, at (head, channel), is the sum over the 8192 positions. -/
theorem sum_positions (w : FVec Ideal S2x8192x64 .f32) (hr : S2x8192x64.Reduces [1] S2x64) (p1 : FKind.Formats .f32)
    (p2 : (0x00000000#32 : BitVec 32) = 0x00000000#32) (h : Fin 2) (d : Fin 64) :
    multiReduction .add [1] S2x64 w 0x00000000#32 hr p1 p2 (ix2 h d) = ∑ n : Fin 8192, w (ix3 h n d) :=
  (Ideal.multiReduction_add_single w _ hr p1 p2 (ix2 h d)).trans
    (Finset.sum_congr rfl fun n _ => congrArg w (funext fun a => Fin.ext (by
      match a with | ⟨0, _⟩ => rfl | ⟨1, _⟩ => rfl | ⟨2, _⟩ => rfl)))

/-- A per-(head, position) value kept as a column [2, 8192, 1] and spread over the 64 channels reads, at every channel, that value. -/
theorem spread_channels (w : FVec Ideal S2x8192 .f32) (hc : S2x8192.ShapeCasts S2x8192x1) (hb : S2x8192x1.Broadcasts S2x8192x64)
    (h : Fin 2) (n : Fin 8192) (d : Fin 64) :
    broadcastTo S2x8192x64 (shapeCast S2x8192x1 w hc) hb (ix3 h n d) = w (ix2 h n) := by
  rw [broadcastTo_apply (shapeCast S2x8192x1 w hc) hb (ix3 h n d) (ix3 h n (0 : Fin 1)) (fun a => by
    match a with
    | ⟨0, _⟩ => show h.val = if (2 : Nat) = 1 then 0 else h.val; rw [if_neg (by decide)]
    | ⟨1, _⟩ => show n.val = if (8192 : Nat) = 1 then 0 else n.val; rw [if_neg (by decide)]
    | ⟨2, _⟩ => show 0 = if (1 : Nat) = 1 then 0 else d.val; rw [if_pos rfl])]
  exact shapeCast_apply w hc _ _ (by
    rw [Shape.rowMajor_val_two, Shape.rowMajor_val_three]
    show h.val * 8192 + n.val = (h.val * 8192 + n.val) * 1 + 0
    omega)

/-- A per-(head, channel) value kept as a row [2, 1, 64] and spread over the 8192 positions reads, at every position, that value. -/
theorem spread_positions (w : FVec Ideal S2x64 .f32) (hc : S2x64.ShapeCasts S2x1x64) (hb : S2x1x64.Broadcasts S2x8192x64)
    (h : Fin 2) (n : Fin 8192) (d : Fin 64) :
    broadcastTo S2x8192x64 (shapeCast S2x1x64 w hc) hb (ix3 h n d) = w (ix2 h d) := by
  rw [broadcastTo_apply (shapeCast S2x1x64 w hc) hb (ix3 h n d) (ix3 h (0 : Fin 1) d) (fun a => by
    match a with
    | ⟨0, _⟩ => show h.val = if (2 : Nat) = 1 then 0 else h.val; rw [if_neg (by decide)]
    | ⟨1, _⟩ => show 0 = if (1 : Nat) = 1 then 0 else n.val; rw [if_pos rfl]
    | ⟨2, _⟩ => show d.val = if (64 : Nat) = 1 then 0 else d.val; rw [if_neg (by decide)])]
  exact shapeCast_apply w hc _ _ (by
    rw [Shape.rowMajor_val_two, Shape.rowMajor_val_three]
    show h.val * 64 + d.val = (h.val * 1 + 0) * 64 + d.val
    omega)

/-- The operand indices of the context product, coordinate by coordinate: the head is shared, the position is the
    contracted coordinate, the left channel is the result's row and the right channel its column. -/
theorem ctx_lhs0 (j : S2x64x64.Idx) (q : ctxDims.contr.Idx) : (ctxDims.lhsIdx j q 0).val = (j 0).val := by
  unfold DotDims.lhsIdx
  rw [dif_pos (show (0 : Fin S2x8192x64.rank) ∈ ctxDims.lhsBatch by decide)]
  rfl
theorem ctx_lhs1 (j : S2x64x64.Idx) (q : ctxDims.contr.Idx) : (ctxDims.lhsIdx j q 1).val = (q ⟨0, by decide⟩).val :=
  ctxDims.lhsIdx_val_of_single rfl j q
theorem ctx_lhs2 (j : S2x64x64.Idx) (q : ctxDims.contr.Idx) : (ctxDims.lhsIdx j q 2).val = (j 1).val := by
  unfold DotDims.lhsIdx
  rw [dif_neg (show ¬(2 : Fin S2x8192x64.rank) ∈ ctxDims.lhsBatch by decide),
    dif_pos (show (2 : Fin S2x8192x64.rank) ∈ ctxDims.lhsNonContracting by decide)]
  rfl
theorem ctx_rhs0 (j : S2x64x64.Idx) (q : ctxDims.contr.Idx) : (ctxDims.rhsIdx j q 0).val = (j 0).val := by
  unfold DotDims.rhsIdx
  rw [dif_pos (show (0 : Fin S2x8192x64.rank) ∈ ctxDims.rhsBatch by decide)]
  rfl
theorem ctx_rhs1 (j : S2x64x64.Idx) (q : ctxDims.contr.Idx) : (ctxDims.rhsIdx j q 1).val = (q ⟨0, by decide⟩).val :=
  ctxDims.rhsIdx_val_of_single rfl j q
theorem ctx_rhs2 (j : S2x64x64.Idx) (q : ctxDims.contr.Idx) : (ctxDims.rhsIdx j q 2).val = (j 2).val := by
  unfold DotDims.rhsIdx
  rw [dif_neg (show ¬(2 : Fin S2x8192x64.rank) ∈ ctxDims.rhsBatch by decide),
    dif_pos (show (2 : Fin S2x8192x64.rank) ∈ ctxDims.rhsNonContracting by decide)]
  rfl

/-- The context product into a zero accumulator, at (head, channel d, channel e): the sum over the positions of
    left[h, n, d] · right[h, n, e]. -/
theorem context_apply (L R : FVec Ideal S2x8192x64 .f32) (prec : Option ContractPrecision) (h : Fin 2) (d e : Fin 64) :
    matmul ctxDims prec L R (constant S2x64x64 .f32 0x00000000#32) (ix3 h d e) = ∑ n : Fin 8192, L (ix3 h n d) * R (ix3 h n e) := by
  simp only [matmul]
  rw [Ideal.matmul_constant_zero_apply, ← Equiv.sum_comp (contrEquiv1 ctxDims 8192 rfl rfl).symm]
  refine Finset.sum_congr rfl fun n _ => ?_
  have hk := contrEquiv1_symm_val ctxDims 8192 rfl rfl n
  have el : ctxDims.lhsIdx (ix3 h d e) ((contrEquiv1 ctxDims 8192 rfl rfl).symm n) = ix3 h n d := funext fun a => Fin.ext (by
    match a with
    | ⟨0, _⟩ => exact ctx_lhs0 _ _
    | ⟨1, _⟩ => exact (ctx_lhs1 _ _).trans hk
    | ⟨2, _⟩ => exact ctx_lhs2 _ _)
  have er : ctxDims.rhsIdx (ix3 h d e) ((contrEquiv1 ctxDims 8192 rfl rfl).symm n) = ix3 h n e := funext fun a => Fin.ext (by
    match a with
    | ⟨0, _⟩ => exact ctx_rhs0 _ _
    | ⟨1, _⟩ => exact (ctx_rhs1 _ _).trans hk
    | ⟨2, _⟩ => exact ctx_rhs2 _ _)
  rw [el, er]

/-- The operand indices of the output product: the head is shared, the channel is the contracted coordinate, the
    position is the result's row and the context's column the result's column. -/
theorem out_lhs0 (j : S2x8192x64.Idx) (q : outDims.contr.Idx) : (outDims.lhsIdx j q 0).val = (j 0).val := by
  unfold DotDims.lhsIdx
  rw [dif_pos (show (0 : Fin S2x8192x64.rank) ∈ outDims.lhsBatch by decide)]
  rfl
theorem out_lhs1 (j : S2x8192x64.Idx) (q : outDims.contr.Idx) : (outDims.lhsIdx j q 1).val = (j 1).val := by
  unfold DotDims.lhsIdx
  rw [dif_neg (show ¬(1 : Fin S2x8192x64.rank) ∈ outDims.lhsBatch by decide),
    dif_pos (show (1 : Fin S2x8192x64.rank) ∈ outDims.lhsNonContracting by decide)]
  rfl
theorem out_lhs2 (j : S2x8192x64.Idx) (q : outDims.contr.Idx) : (outDims.lhsIdx j q 2).val = (q ⟨0, by decide⟩).val :=
  outDims.lhsIdx_val_of_single rfl j q
theorem out_rhs0 (j : S2x8192x64.Idx) (q : outDims.contr.Idx) : (outDims.rhsIdx j q 0).val = (j 0).val := by
  unfold DotDims.rhsIdx
  rw [dif_pos (show (0 : Fin S2x64x64.rank) ∈ outDims.rhsBatch by decide)]
  rfl
theorem out_rhs1 (j : S2x8192x64.Idx) (q : outDims.contr.Idx) : (outDims.rhsIdx j q 1).val = (q ⟨0, by decide⟩).val :=
  outDims.rhsIdx_val_of_single rfl j q
theorem out_rhs2 (j : S2x8192x64.Idx) (q : outDims.contr.Idx) : (outDims.rhsIdx j q 2).val = (j 2).val := by
  unfold DotDims.rhsIdx
  rw [dif_neg (show ¬(2 : Fin S2x64x64.rank) ∈ outDims.rhsBatch by decide),
    dif_pos (show (2 : Fin S2x64x64.rank) ∈ outDims.rhsNonContracting by decide)]
  rfl

/-- The output product into a zero accumulator, at (head, position n, channel e): the sum over the channels of
    left[h, n, d] · right[h, d, e]. -/
theorem output_apply (L : FVec Ideal S2x8192x64 .f32) (R : FVec Ideal S2x64x64 .f32) (prec : Option ContractPrecision) (h : Fin 2)
    (n : Fin 8192) (e : Fin 64) :
    matmul outDims prec L R (constant S2x8192x64 .f32 0x00000000#32) (ix3 h n e) = ∑ d : Fin 64, L (ix3 h n d) * R (ix3 h d e) := by
  simp only [matmul]
  rw [Ideal.matmul_constant_zero_apply, ← Equiv.sum_comp (contrEquiv1 outDims 64 rfl rfl).symm]
  refine Finset.sum_congr rfl fun d _ => ?_
  have hk := contrEquiv1_symm_val outDims 64 rfl rfl d
  have el : outDims.lhsIdx (ix3 h n e) ((contrEquiv1 outDims 64 rfl rfl).symm d) = ix3 h n d := funext fun a => Fin.ext (by
    match a with
    | ⟨0, _⟩ => exact out_lhs0 _ _
    | ⟨1, _⟩ => exact out_lhs1 _ _
    | ⟨2, _⟩ => exact (out_lhs2 _ _).trans hk)
  have er : outDims.rhsIdx (ix3 h n e) ((contrEquiv1 outDims 64 rfl rfl).symm d) = ix3 h d e := funext fun a => Fin.ext (by
    match a with
    | ⟨0, _⟩ => exact out_rhs0 _ _
    | ⟨1, _⟩ => exact (out_rhs1 _ _).trans hk
    | ⟨2, _⟩ => exact out_rhs2 _ _)
  rw [el, er]

/-- THE BODY'S STORED VALUE at (head h, position n, channel e) of the block is linear attention's entry there. -/
theorem pay_apply (x0 x1 x2 : Vec Ideal S1x2x8192x64 .f32) (u : Fin 1) (h : Fin 2) (n : Fin 8192) (e : Fin 64) :
    k0_pay1 (F := Ideal) x0 x1 x2 (ix4 u h n e) = attnAt x0 x1 x2 u h n e := by
  obtain rfl : u = 0 := Subsingleton.elim _ _
  unfold k0_pay1 attnAt
  rw [shapeCast_abc_1abc_apply, output_apply]
  refine Finset.sum_congr rfl fun d _ => ?_
  rw [context_apply]
  simp only [mulf_apply, divf_apply, exp_apply, broadcast_apply, spread_channels, spread_positions, shapeCast_1abc_abc_apply,
    Ideal.ofBits_def]
  refine congrArg₂ (· * ·) (congrArg (· * _) (congrArg (Ideal.div _) ?_))
    (Finset.sum_congr rfl fun n' _ => congrArg (· * _) (congrArg (Ideal.div _) ?_))
  · exact (sum_channels _ _ _ _ h n).trans (Finset.sum_congr rfl fun d' _ => by rw [exp_apply, shapeCast_1abc_abc_apply])
  · exact (sum_positions _ _ _ _ h d).trans (Finset.sum_congr rfl fun n'' _ => by rw [exp_apply, shapeCast_1abc_abc_apply])

end Cert.LinAttn.Block

end
-- ==== Proof.KernelValue.lean ====
/-
  FROM BLOCKS TO THE ARRAY.  The grid has 4 × 8 points; point (b, p) reads the blocks of q, k, v that hold batch b
  and the two heads 2p, 2p+1 (all 8192 positions and 64 channels of them), and writes back the block of the result
  at the same place.  Linear attention's entry at (b, h, ·, ·) reads the three arrays at batch b and head h only, so
  what the body computes on the blocks of a point is the block of linear attention of the whole arrays; the 32
  blocks tile the result array, so after the run it holds linear attention of the arguments everywhere.
-/
import proofs.«102987_j26371099198098_2_alg».proof.Proof.Gen.KernelIdeal.Value
import proofs.«102987_j26371099198098_2_alg».proof.Proof.KernelBlock

noncomputable section

namespace Cert.LinAttn.Kernel

open Cert.KernelIdeal Cert.KernelIdeal.Gen Idealize.ShloMosaic Idealize.ShloMosaic.TcCoe Idealize.SL.Sem
open Idealize.ShloMosaic.ValueIdx Cert.LinAttn
open Idealize.ShloMosaic.Pipeline (Dat)

variable (m : (ℓ : Loc nD τ sig) → Buf (Elt Ideal) ℓ) (ρ : Dev nD → PrngReg)

theorem origin : (![0, 0, 0, 0] : Fin 4 → Nat) = fun _ => 0 := funext fun a => by fin_cases a <;> rfl

/-- The four index maps, decided over the 32 grid points: every window's block index is (batch, head pair, 0, 0), the
    same for the three inputs and the output, the batch below 4 and the head pair below 8. -/
theorem index_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) ≤ 3 ∧ win0_3.index t (1 : Fin 4) ≤ 7 :=
  (by decide +kernel : ∀ t : Fin grid0.N, _)

/-- Every (batch, head pair) is some grid point's. -/
theorem index_onto : ∀ (q0 : Fin 4) (q1 : Fin 8), ∃ t : Fin cfg0.N, win0_3.index t = ![q0.val, q1.val, 0, 0] :=
  (by decide +kernel : ∀ (q0 : Fin 4) (q1 : Fin 8), ∃ t : Fin grid0.N, win0_3.index t = ![q0.val, q1.val, 0, 0])

/-- WHAT POINT `t` WRITES BACK is block `t` of linear attention of the three argument arrays. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Cert.KernelIdeal.Value.flushed3]
  unfold out0_3
  rw [View.canon_unit_zero origin]
  simp only [View.ld_unit_zero (S := S1x2x8192x64) origin]
  obtain ⟨a0, a1, a2, a3, b0, b1, b2, b3, c0, c1, c2, c3, o2, o3, o0, o1⟩ := index_facts t
  funext y
  obtain ⟨u, h, n, e, rfl⟩ : ∃ (u : Fin 1) (h : Fin 2) (n : Fin 8192) (e : Fin 64), y = ix4 u h n e :=
    ⟨y 0, y 1, y 2, y 3, eq_ix4 y⟩
  have hu : u.val = 0 := by omega
  have hh : h.val < 2 := h.isLt
  show k0_pay1 (F := Ideal) (iblk m c 0 t) (iblk m c 1 t) (iblk m c 2 t) (ix4 u h n e)
    = attn (V m c main_arg0) (V m c main_arg1) (V m c main_arg2) (((cfg0.win 3).blk t).view.emb (ix4 u h n e))
  refine (Block.pay_apply (iblk m c 0 t) (iblk m c 1 t) (iblk m c 2 t) u h n e).trans ?_
  have hemb : ((cfg0.win 3).blk t).view.emb (ix4 u h n e)
      = ix4 (⟨win0_3.index t (0 : Fin 4), by omega⟩ : Fin 4) (⟨win0_3.index t (1 : Fin 4) * 2 + h.val, by omega⟩ : Fin 16) n e := by
    funext a; apply Fin.ext
    match a with
    | ⟨0, _⟩ => show win0_3.index t (0 : Fin 4) * 1 + 1 * u.val = win0_3.index t (0 : Fin 4); omega
    | ⟨1, _⟩ => show win0_3.index t (1 : Fin 4) * 2 + 1 * h.val = win0_3.index t (1 : Fin 4) * 2 + h.val; omega
    | ⟨2, _⟩ => show win0_3.index t (2 : Fin 4) * 8192 + 1 * n.val = n.val; omega
    | ⟨3, _⟩ => show win0_3.index t (3 : Fin 4) * 64 + 1 * e.val = e.val; omega
  rw [hemb, attn_ix4]
  refine attnAt_congr (iblk m c 0 t) (iblk m c 1 t) (iblk m c 2 t) (V m c main_arg0) (V m c main_arg1) (V m c main_arg2)
    u h _ _ (fun n' d => ?_) (fun n' d => ?_) (fun n' d => ?_) n e
  · show V m c main_arg0 (((cfg0.win 0).blk t).view.emb (ix4 u h n' d)) = _
    refine congrArg (V m c main_arg0) (funext fun a => Fin.ext ?_)
    match a with
    | ⟨0, _⟩ => show win0_0.index t (0 : Fin 4) * 1 + 1 * u.val = win0_3.index t (0 : Fin 4); omega
    | ⟨1, _⟩ => show win0_0.index t (1 : Fin 4) * 2 + 1 * h.val = win0_3.index t (1 : Fin 4) * 2 + h.val; omega
    | ⟨2, _⟩ => show win0_0.index t (2 : Fin 4) * 8192 + 1 * n'.val = n'.val; omega
    | ⟨3, _⟩ => show win0_0.index t (3 : Fin 4) * 64 + 1 * d.val = d.val; omega
  · show V m c main_arg1 (((cfg0.win 1).blk t).view.emb (ix4 u h n' d)) = _
    refine congrArg (V m c main_arg1) (funext fun a => Fin.ext ?_)
    match a with
    | ⟨0, _⟩ => show win0_1.index t (0 : Fin 4) * 1 + 1 * u.val = win0_3.index t (0 : Fin 4); omega
    | ⟨1, _⟩ => show win0_1.index t (1 : Fin 4) * 2 + 1 * h.val = win0_3.index t (1 : Fin 4) * 2 + h.val; omega
    | ⟨2, _⟩ => show win0_1.index t (2 : Fin 4) * 8192 + 1 * n'.val = n'.val; omega
    | ⟨3, _⟩ => show win0_1.index t (3 : Fin 4) * 64 + 1 * d.val = d.val; omega
  · show V m c main_arg2 (((cfg0.win 2).blk t).view.emb (ix4 u h n' d)) = _
    refine congrArg (V m c main_arg2) (funext fun a => Fin.ext ?_)
    match a with
    | ⟨0, _⟩ => show win0_2.index t (0 : Fin 4) * 1 + 1 * u.val = win0_3.index t (0 : Fin 4); omega
    | ⟨1, _⟩ => show win0_2.index t (1 : Fin 4) * 2 + 1 * h.val = win0_3.index t (1 : Fin 4) * 2 + h.val; omega
    | ⟨2, _⟩ => show win0_2.index t (2 : Fin 4) * 8192 + 1 * n'.val = n'.val; omega
    | ⟨3, _⟩ => show win0_2.index t (3 : Fin 4) * 64 + 1 * d.val = d.val; omega

/-- An index of the result array is in point `t`'s block iff each coordinate is in the block's range on its axis. -/
theorem mem_block (t : Fin cfg0.N) (i : S4x16x8192x64.Idx) :
    i ∈ ((cfg0.win 3).blk t).view.set ↔ ∀ a : Fin 4, win0_3.index t a * S1x2x8192x64.size a ≤ (i a).val
      ∧ (i a).val < win0_3.index t a * S1x2x8192x64.size a + S1x2x8192x64.size a := by
  show i ∈ ((View.whole main_v0).slice (win0_3.rect t)).set ↔ _
  rw [View.set_slice_whole, Rect.mem_set_unit]
  exact Iff.rfl

/-- THE BLOCKS TILE THE RESULT: the index (b, h, n, e) is in the block of the point of batch b and head pair h / 2. -/
theorem covered (i : S4x16x8192x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 8192 := (i 2).isLt
  have hi3 : (i 3).val < 64 := (i 3).isLt
  obtain ⟨t, ht⟩ := index_onto ⟨(i 0).val, hi0⟩ ⟨(i 1).val / 2, by omega⟩
  have q0 : win0_3.index t (0 : Fin 4) = (i 0).val := congrFun ht 0
  have q1 : win0_3.index t (1 : Fin 4) = (i 1).val / 2 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2 ≤ (i 1).val ∧ (i 1).val < win0_3.index t (1 : Fin 4) * 2 + 2; omega
  | ⟨2, _⟩ => show win0_3.index t (2 : Fin 4) * 8192 ≤ (i 2).val ∧ (i 2).val < win0_3.index t (2 : Fin 4) * 8192 + 8192; omega
  | ⟨3, _⟩ => show win0_3.index t (3 : Fin 4) * 64 ≤ (i 3).val ∧ (i 3).val < win0_3.index t (3 : Fin 4) * 64 + 64; omega

/-- THE RESULT ARRAY after the run is linear attention of the three argument arrays. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution terminates, the result array at linear attention of the arguments,
    the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.LinAttn.Kernel

end
-- ==== Proof.Softmax.lean ====
/-
  The softmax over finitely many real numbers does not change when one real number is subtracted from every
  entry: exp (x i - m) / ∑ j, exp (x j - m) = exp (x i) / ∑ j, exp (x j), because exp (x - m) = exp x / exp m and
  exp m is a nonzero real.  On the extended reals this needs every x j and m to be real (at an infinity the
  difference x - m, the exponentials and the quotient take the corner conventions).  The shift used by a
  numerically safe softmax is the largest entry; all that is needed of it here is that the maximum of finitely
  many reals is a real.  Also here: the three float constants of the two programs, and 1 / sqrt 64 = 1 / 8.
-/
import Idealize.ShloMosaic.PureOps.Ideal
import Idealize.ShloMosaic.PureOps.Ideal.Laws

noncomputable section

open scoped BigOperators

namespace Cert.LinAttn

open Idealize.ShloMosaic

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed on the extended reals is the real quotient. -/
theorem div_coe_coe (a s : ℝ) (hs : s ≠ 0) : Ideal.div (a : EReal) (s : EReal) = ((a / s : ℝ) : EReal) := by
  rw [Ideal.div_coe hs, ← EReal.coe_mul, mul_one_div]

/-- SHIFT INVARIANCE of the softmax on real entries: subtracting the real `M` from every entry (and adding the
    zero `z` the sum starts from) changes nothing. -/
theorem softmax_shift {ι : Type*} [Fintype ι] (x : ι → EReal) (hx : ∀ j, ∃ r : ℝ, x j = (r : EReal)) (M : EReal)
    (hM : ∃ r : ℝ, M = (r : EReal)) (z : EReal) (hz : z = 0) (i : ι) :
    Ideal.div (Ideal.exp (x i - M)) (z + ∑ j, Ideal.exp (x j - M)) = Ideal.div (Ideal.exp (x i)) (∑ j, Ideal.exp (x j)) := by
  choose x' hx' using hx
  obtain ⟨m, rfl⟩ := hM
  obtain rfl : x = fun j => (x' j : EReal) := funext hx'
  subst hz
  simp only [← EReal.coe_sub, Ideal.exp_coe, zero_add, ← coe_sum]
  have hpos : 0 < ∑ j, Real.exp (x' j) := Finset.sum_pos (fun j _ => Real.exp_pos _) ⟨i, Finset.mem_univ i⟩
  have hpos' : 0 < ∑ j, Real.exp (x' j - m) := Finset.sum_pos (fun j _ => Real.exp_pos _) ⟨i, Finset.mem_univ i⟩
  rw [div_coe_coe _ _ hpos'.ne', div_coe_coe _ _ hpos.ne']
  congr 1
  simp only [Real.exp_sub]
  rw [← Finset.sum_div]
  field_simp

/-- The maximum of finitely many (at least one) real numbers, folded from -∞, and then joined with -∞ once more, is a real number. -/
theorem fold_max_real {ι : Type*} [Fintype ι] [Nonempty ι] (x : ι → EReal) (hx : ∀ j, ∃ r : ℝ, x j = (r : EReal)) :
    ∃ r : ℝ, max (⊥ : EReal) ((Finset.univ : Finset ι).fold max ⊥ x) = (r : EReal) := by
  rw [max_eq_right bot_le]
  have h1 : (Finset.univ : Finset ι).fold max ⊥ x ≠ ⊤ := by
    apply ne_of_lt
    rw [Finset.fold_max_lt]
    exact ⟨bot_lt_top, fun j _ => by obtain ⟨r, hr⟩ := hx j; rw [hr]; exact EReal.coe_lt_top r⟩
  have h2 : (Finset.univ : Finset ι).fold max ⊥ x ≠ ⊥ := by
    obtain ⟨j⟩ := ‹Nonempty ι›
    obtain ⟨r, hr⟩ := hx j
    have hle : x j ≤ (Finset.univ : Finset ι).fold max ⊥ x :=
      (Finset.le_fold_max (x j)).mpr (Or.inr ⟨j, Finset.mem_univ j, le_rfl⟩)
    rw [hr] at hle
    exact ne_of_gt (lt_of_lt_of_le (EReal.bot_lt_coe r) hle)
  exact ⟨_, (EReal.coe_toReal h1 h2).symm⟩

/-! ## The constants -/

/-- The pattern of `+0.0` denotes 0. -/
theorem ofBits_zero : Ideal.ofBits .f32 0x00000000#32 = 0 := by
  simp [Ideal.ofBits, Ideal.ieee]

/-- The pattern of `-inf` denotes -∞. -/
theorem ofBits_neg_inf : Ideal.ofBits .f32 0xFF800000#32 = ⊥ := by
  simp [Ideal.ofBits, Ideal.ieee]

/-- The pattern of `1.0` denotes 1. -/
theorem ofBits_one : Ideal.ofBits .f32 0x3F800000#32 = ((1 : ℝ) : EReal) := by
  simp [Ideal.ofBits, Ideal.ieee, -EReal.coe_mul]; norm_num

/-- The pattern of `64.0` denotes 64. -/
theorem ofBits_64 : Ideal.ofBits .f32 0x42800000#32 = ((64 : ℝ) : EReal) := by
  simp [Ideal.ofBits, Ideal.ieee, -EReal.coe_mul]; norm_num

/-- The pattern of `0.125` denotes 1/8. -/
theorem ofBits_eighth : Ideal.ofBits .f32 0x3E000000#32 = ((1 / 8 : ℝ) : EReal) := by
  simp [Ideal.ofBits, Ideal.ieee, -EReal.coe_mul]; norm_num

/-- 1 / sqrt 64 is 1/8 exactly: 64 is the square of 8. -/
theorem one_div_sqrt_64 :
    Ideal.div (Ideal.ofBits .f32 0x3F800000#32) (Ideal.sqrt (Ideal.ofBits .f32 0x42800000#32)) = Ideal.ofBits .f32 0x3E000000#32 := by
  have h8 : Real.sqrt 64 = 8 := by
    rw [show (64 : ℝ) = 8 ^ 2 by norm_num, Real.sqrt_sq (by norm_num)]
  rw [ofBits_one, ofBits_64, ofBits_eighth, Ideal.sqrt_coe, if_neg (by norm_num), h8, div_coe_coe _ _ (by norm_num)]

end Cert.LinAttn

end
-- ==== Proof.RefValue.lean ====
/-
  WHAT THE REFERENCE COMPUTES, index by index.  The reference takes the numerically safe softmax of q over the
  channels — it subtracts each row's largest entry before the exponential — scales by 1 / sqrt 64, takes the safe
  softmax of k over the positions, and forms the two products kᵀ v and q (kᵀ v) head by head.  On real inputs the
  subtracted maxima are real numbers, so by the shift invariance of the softmax they drop out, 1 / sqrt 64 is 1/8,
  and the result is linear attention's entry.  This is where the inputs' finiteness is used (for q and k; v enters
  linearly and may be anything).
-/
import proofs.«102987_j26371099198098_2_alg».proof.Proof.Gen.ReferenceIdeal.Read
import proofs.«102987_j26371099198098_2_alg».proof.Proof.Spec
import proofs.«102987_j26371099198098_2_alg».proof.Proof.Softmax

noncomputable section

open scoped BigOperators

namespace Cert.LinAttn.Ref

open Cert.ReferenceIdeal Cert.ReferenceIdeal.Gen Cert.ReferenceIdeal.Read Idealize.ShloMosaic Idealize.ShloMosaic.ValueIdx Cert.LinAttn

/-- Every entry of the array is a real number. -/
def IsReal (x : (⟨S4x16x8192x64, .f32⟩ : BufTy).Contents (Elt Ideal)) : Prop := ∀ i, ∃ r : ℝ, x i = (r : EReal)

/-- The largest entry of a row of q (over the channels) is a real number when q's entries are. -/
theorem rowmax_real (q : (⟨S4x16x8192x64, .f32⟩ : BufTy).Contents (Elt Ideal)) (hq : IsReal q) (i : S4x16x8192.Idx) :
    ∃ r : ℝ, val_main_v4 (F := Ideal) q i = (r : EReal) := by
  have hred : S4x16x8192x64.Reduces [3] S4x16x8192 := by decide
  rw [val_main_v4_apply, val_main_v3_apply, val_main_cst_2_apply]
  unfold val_main_v2
  have key := Host.reduce_eq_fold_single (FloatOps.maximumf (F := Ideal) (φ := .f32)) q (val_main_cst_1 (F := Ideal))
    reducesTo_S4x16x8192x64_S4x16x8192_d3 hred h_S_ i
  rw [key, val_main_cst_1_apply]
  show ∃ r : ℝ, max (Ideal.ofBits .f32 0xFF800000#32) ((Finset.univ : Finset (Fin 64)).fold max (Ideal.ofBits .f32 0xFF800000#32) (q ∘ hred.lift i)) = (r : EReal)
  rw [ofBits_neg_inf]
  haveI : Nonempty (Fin 64) := ⟨⟨0, by decide⟩⟩
  exact fold_max_real (ι := Fin 64) _ (fun j => hq _)

/-- The largest entry of a column of k (over the positions) is a real number when k's entries are. -/
theorem colmax_real (k : (⟨S4x16x8192x64, .f32⟩ : BufTy).Contents (Elt Ideal)) (hk : IsReal k) (i : S4x16x64.Idx) :
    ∃ r : ℝ, val_main_v17 (F := Ideal) k i = (r : EReal) := by
  have hred : S4x16x8192x64.Reduces [2] S4x16x64 := by decide
  rw [val_main_v17_apply, val_main_v16_apply, val_main_cst_5_apply]
  unfold val_main_v15
  have key := Host.reduce_eq_fold_single (FloatOps.maximumf (F := Ideal) (φ := .f32)) k (val_main_cst_4 (F := Ideal))
    reducesTo_S4x16x8192x64_S4x16x64_d2 hred h_S_ i
  rw [key, val_main_cst_4_apply]
  show ∃ r : ℝ, max (Ideal.ofBits .f32 0xFF800000#32) ((Finset.univ : Finset (Fin 8192)).fold max (Ideal.ofBits .f32 0xFF800000#32) (k ∘ hred.lift i)) = (r : EReal)
  rw [ofBits_neg_inf]
  haveI : Nonempty (Fin 8192) := ⟨⟨0, by decide⟩⟩
  exact fold_max_real (ι := Fin 8192) _ (fun j => hk _)

/-- The reference's softmax of q over the channels, at (b, h, n, d): exp q / ∑ exp q, the maximum dropped. -/
theorem qsoftmax_apply (q : (⟨S4x16x8192x64, .f32⟩ : BufTy).Contents (Elt Ideal)) (hq : IsReal q) (b : Fin 4) (h : Fin 16)
    (n : Fin 8192) (d : Fin 64) :
    val_main_v12 (F := Ideal) q (ix4 b h n d)
      = Ideal.div (Ideal.exp (q (ix4 b h n d))) (∑ d' : Fin 64, Ideal.exp (q (ix4 b h n d'))) := by
  obtain ⟨m, hm⟩ := rowmax_real q hq (ix3 b h n)
  have e1 : ∀ d' : Fin 64, idx_main_v5 (idx_main_v6 (ix4 b h n d')) = ix3 b h n := fun d' =>
    funext fun a => by match a with | ⟨0, _⟩ => rfl | ⟨1, _⟩ => rfl | ⟨2, _⟩ => rfl
  have e2 : idx_main_v10 (idx_main_v11 (ix4 b h n d)) = ix3 b h n :=
    funext fun a => by match a with | ⟨0, _⟩ => rfl | ⟨1, _⟩ => rfl | ⟨2, _⟩ => rfl
  have e3 : ∀ d' : Fin 64, idx_main_v9 (ix3 b h n) d' = ix4 b h n d' := fun d' =>
    funext fun a => by match a with | ⟨0, _⟩ => rfl | ⟨1, _⟩ => rfl | ⟨2, _⟩ => rfl | ⟨3, _⟩ => rfl
  rw [val_main_v12_apply, val_main_v11_apply, val_main_v10_apply, e2, val_main_v9_apply]
  simp only [val_main_v8_apply, val_main_v7_apply, val_main_v6_apply, val_main_v5_apply, e1, e3, hm, val_main_cst_3_apply,
    Ideal.hostDivf_def, Ideal.hostUnary_exp_def, Ideal.subf_def, Ideal.ofBits_def]
  exact softmax_shift (fun d' : Fin 64 => q (ix4 b h n d')) (fun j => hq _) (m : EReal) ⟨m, rfl⟩ _ ofBits_zero d

/-- The reference's softmax of k over the positions, at (b, h, n, d). -/
theorem ksoftmax_apply (k : (⟨S4x16x8192x64, .f32⟩ : BufTy).Contents (Elt Ideal)) (hk : IsReal k) (b : Fin 4) (h : Fin 16)
    (n : Fin 8192) (d : Fin 64) :
    val_main_v25 (F := Ideal) k (ix4 b h n d)
      = Ideal.div (Ideal.exp (k (ix4 b h n d))) (∑ n' : Fin 8192, Ideal.exp (k (ix4 b h n' d))) := by
  obtain ⟨m, hm⟩ := colmax_real k hk (ix3 b h d)
  have e1 : ∀ n' : Fin 8192, idx_main_v18 (idx_main_v19 (ix4 b h n' d)) = ix3 b h d := fun n' =>
    funext fun a => by match a with | ⟨0, _⟩ => rfl | ⟨1, _⟩ => rfl | ⟨2, _⟩ => rfl
  have e2 : idx_main_v23 (idx_main_v24 (ix4 b h n d)) = ix3 b h d :=
    funext fun a => by match a with | ⟨0, _⟩ => rfl | ⟨1, _⟩ => rfl | ⟨2, _⟩ => rfl
  have e3 : ∀ n' : Fin 8192, idx_main_v22 (ix3 b h d) n' = ix4 b h n' d := fun n' =>
    funext fun a => by match a with | ⟨0, _⟩ => rfl | ⟨1, _⟩ => rfl | ⟨2, _⟩ => rfl | ⟨3, _⟩ => rfl
  rw [val_main_v25_apply, val_main_v24_apply, val_main_v23_apply, e2, val_main_v22_apply]
  simp only [val_main_v21_apply, val_main_v20_apply, val_main_v19_apply, val_main_v18_apply, e1, e3, hm, val_main_cst_6_apply,
    Ideal.hostDivf_def, Ideal.hostUnary_exp_def, Ideal.subf_def, Ideal.ofBits_def]
  exact softmax_shift (fun n' : Fin 8192 => k (ix4 b h n' d)) (fun j => hk _) (m : EReal) ⟨m, rfl⟩ _ ofBits_zero n

/-- The reference's scale 1 / sqrt 64, spread over the array, is 1/8 at every index. -/
theorem scale_apply (i : S4x16x8192x64.Idx) : val_main_v13 (F := Ideal) i = Ideal.ofBits .f32 0x3E000000#32 := by
  rw [val_main_v13_apply, val_main_v1_apply, val_main_cst_0_apply, val_main_v0_apply, val_main_cst_apply]
  simp only [Ideal.hostDivf_def, Ideal.hostUnary_sqrt_def, Ideal.ofBits_def]
  exact one_div_sqrt_64

/-- THE REFERENCE'S RESULT on real q and k is linear attention, index by index. -/
theorem result_eq (q k v : (⟨S4x16x8192x64, .f32⟩ : BufTy).Contents (Elt Ideal)) (hq : IsReal q) (hk : IsReal k) :
    val_main_v27 (F := Ideal) q k v = attn q k v := by
  funext i
  obtain ⟨b, h, n, e, rfl⟩ : ∃ (b : Fin 4) (h : Fin 16) (n : Fin 8192) (e : Fin 64), i = ix4 b h n e :=
    ⟨i 0, i 1, i 2, i 3, eq_ix4 i⟩
  have el : ∀ d : Fin 64, lidx_main_v27 (ix4 b h n e) d = ix4 b h n d := fun d =>
    funext fun a => by match a with | ⟨0, _⟩ => rfl | ⟨1, _⟩ => rfl | ⟨2, _⟩ => rfl | ⟨3, _⟩ => rfl
  have er : ∀ d : Fin 64, ridx_main_v27 (ix4 b h n e) d = ix4 b h d e := fun d =>
    funext fun a => by match a with | ⟨0, _⟩ => rfl | ⟨1, _⟩ => rfl | ⟨2, _⟩ => rfl | ⟨3, _⟩ => rfl
  have fl : ∀ (d : Fin 64) (n' : Fin 8192), lidx_main_v26 (ix4 b h d e) n' = ix4 b h n' d := fun d n' =>
    funext fun a => by match a with | ⟨0, _⟩ => rfl | ⟨1, _⟩ => rfl | ⟨2, _⟩ => rfl | ⟨3, _⟩ => rfl
  have fr : ∀ (d : Fin 64) (n' : Fin 8192), ridx_main_v26 (ix4 b h d e) n' = ix4 b h n' e := fun d n' =>
    funext fun a => by match a with | ⟨0, _⟩ => rfl | ⟨1, _⟩ => rfl | ⟨2, _⟩ => rfl | ⟨3, _⟩ => rfl
  rw [attn_ix4, val_main_v27_apply]
  unfold attnAt
  simp only [el, er, val_main_v14_apply, val_main_v26_apply, fl, fr, qsoftmax_apply q hq, ksoftmax_apply k hk, scale_apply,
    Ideal.mulf_def]

end Cert.LinAttn.Ref

end
-- ==== Proof.Finite.lean ====
/-
  THE PRECONDITION, READ BACK.  The precondition says of each of the three inputs that every entry's absolute value
  is below +∞, all these comparisons joined by "and".  An extended real whose absolute value is below +∞ is neither
  +∞ nor -∞ (the absolute value of -∞ is +∞): it is a real number.  So under the precondition every entry of every
  input is real.
-/
import proofs.«102987_j26371099198098_2_alg».proof.Pre_finite_inputs
import proofs.«102987_j26371099198098_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.LinAttn.Finite

open Idealize.ShloMosaic Cert.Pre_finite_inputs Cert.Pre_finite_inputs.Gen

/-- The scalar shape has one index. -/
instance : Subsingleton S_.Idx := ⟨fun a b => funext fun d => d.elim0⟩

/-- The pattern of `+inf` denotes +∞. -/
theorem ofBits_inf : Ideal.ofBits .f32 0x7F800000#32 = ⊤ := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by simp [Ideal.cmp, hn]
    rw [this] at h
    exact absurd h (by decide)
  induction x using EReal.rec with
  | bot => simp at hlt
  | top => simp at hlt
  | coe r => exact ⟨r, rfl⟩

/-- Under the precondition every entry of each of the three inputs is a real number. -/
theorem reals_of_pre (a0 a1 a2 : FVec Ideal S4x16x8192x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1'⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1' i)
  · exact real_of_abs_lt _ (Host.reduce_andi_all _ _ _ _ _ h2 i)

end Cert.LinAttn.Finite

end
-- ==== Proof.lean ====
/-
  A Pallas kernel for linear attention against its jnp reference, on the extended reals.

  Both programs take q, k, v of shape [4 batches, 16 heads, 8192 positions, 64 channels] and return, head by head,
  softmax_channels(q)/8 · (softmax_positions(k)ᵀ · v).  The kernel works on blocks of two heads, computes both
  softmaxes as exp x / ∑ exp x with no maximum subtracted, scales by the constant 0.125, and forms the two products
  on the block.  The reference subtracts each row's (column's) maximum before the exponential, scales by
  1 / sqrt 64, and forms the two products on the whole arrays.

  Why they agree: a head's result reads only that head of q, k and v, so the blocks tile the computation; the two
  products are the same finite sums on both sides; 1 / sqrt 64 = 1/8 exactly; and on real (finite) inputs the
  maximum is a real number, which the softmax does not see (exp (x - m) / ∑ exp (x - m) = exp x / ∑ exp x).  Only this
  last step uses the precondition, and only for q and k.

  The modules: Softmax (the shift invariance, the constants), Spec (linear attention as one function of the three
  arrays), KernelBlock (the kernel body's stored value on a block is that function of the block), KernelValue (the
  blocks tile the result array, so the kernel's run ends at that function of the arguments), RefValue (the
  reference's result is that function on real q and k), Finite (the precondition makes every entry real).
-/
import proofs.«102987_j26371099198098_2_alg».proof.Defs
import proofs.«102987_j26371099198098_2_alg».proof.Proof.Gen.Kernel
import proofs.«102987_j26371099198098_2_alg».proof.Proof.Gen.Kernel.Skeleton
import proofs.«102987_j26371099198098_2_alg».proof.Proof.Gen.Kernel.Launch
import proofs.«102987_j26371099198098_2_alg».proof.Proof.Gen.Kernel.Points
import proofs.«102987_j26371099198098_2_alg».proof.Proof.Gen.Kernel.Frame
import proofs.«102987_j26371099198098_2_alg».proof.Proof.Gen.KernelIdeal
import proofs.«102987_j26371099198098_2_alg».proof.Proof.Gen.KernelIdeal.Skeleton
import proofs.«102987_j26371099198098_2_alg».proof.Proof.Gen.KernelIdeal.Launch
import proofs.«102987_j26371099198098_2_alg».proof.Proof.Gen.KernelIdeal.Points
import proofs.«102987_j26371099198098_2_alg».proof.Proof.Gen.KernelIdeal.Frame
import proofs.«102987_j26371099198098_2_alg».proof.Proof.Gen.ReferenceIdeal
import proofs.«102987_j26371099198098_2_alg».proof.Proof.Gen.Pre_finite_inputs
import proofs.«102987_j26371099198098_2_alg».proof.Proof.Gen.KernelIdeal.Value
import proofs.«102987_j26371099198098_2_alg».proof.Proof.Gen.ReferenceIdeal.Run
import proofs.«102987_j26371099198098_2_alg».proof.Proof.Gen.ReferenceIdeal.Read
import proofs.«102987_j26371099198098_2_alg».proof.Proof.KernelValue
import proofs.«102987_j26371099198098_2_alg».proof.Proof.RefValue
import proofs.«102987_j26371099198098_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on q, k and v, all entries real: the kernel's result array ends at linear attention of
    the arguments (the blocks tile the heads), and the reference's at the same function (its subtracted maxima are
    real and drop out of the softmaxes, and its scale is 1/8). -/
theorem algebraic : Cert.algebraic_KernelIdeal_ReferenceIdeal := by
  intro m ρ m' ρ' hpre hagree
  refine ⟨_, Cert.LinAttn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, -⟩ := Cert.LinAttn.Finite.reals_of_pre _ _ _ (hpre c)
  rw [(hagree c).1, (hagree c).2.1, (hagree c).2.2, Cert.ReferenceIdeal.Read.val_main_v27_eq]
  exact Cert.LinAttn.Ref.result_eq _ _ _ r0 r1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
